-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S4096x1 : Shape := ⟨2, ![4096, 1]⟩
abbrev S128x128 : Shape := ⟨2, ![128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4096x128 .f32) (main_arg1 : FVec F S4096x128 .f32) (main_arg2 : FVec F S4096x4096 .f32) (main_arg3 : FVec F S4096x1 .f32) (main_arg4 : FVec F S128x128 .f32) (main_arg5 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x1 .f32 := Host.absf main_arg3
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg4 main_arg5 main_v13 main_v16
-- ==== Kernel.lean ====
abbrev S4096x128 : Shape := ⟨2, ![4096, 128]⟩
abbrev S4096x4096 : Shape := ⟨2, ![4096, 4096]⟩
abbrev S4096x1 : Shape := ⟨2, ![4096, 1]⟩
abbrev S128x128 : Shape := ⟨2, ![128, 128]⟩
abbrev S128 : Shape := ⟨1, ![128]⟩
abbrev S1x128 : Shape := ⟨2, ![1, 128]⟩
abbrev S512x2048 : Shape := ⟨2, ![512, 2048]⟩
abbrev S512x1 : Shape := ⟨2, ![512, 1]⟩
abbrev S512x128 : Shape := ⟨2, ![512, 128]⟩
abbrev S2048x128 : Shape := ⟨2, ![2048, 128]⟩

abbrev nBuf : Space → Nat
  | .hbm => 8
  | .vmem => 13
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .f32⟩
  | .hbm, ⟨3, _⟩ => ⟨S4096x1, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S4096x128, .f32⟩
  | .local _ .vmem, ⟨0, _⟩ => ⟨S4096x128, .f32⟩
  | .local _ .vmem, ⟨1, _⟩ => ⟨S128x128, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S512x128, .f32⟩
  | .local _ .vmem, ⟨10, _⟩ => ⟨S512x128, .f32⟩
  | .local _ .vmem, ⟨11, _⟩ => ⟨S4096x128, .f32⟩
  | .local _ .vmem, ⟨12, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let arg1 : BitVec 32 := BitVec.ofNat 32 (i 1).val
  let c2048_i32 : BitVec 32 := 2048#32
  let v6 : BitVec 32 := Scalar.muli arg1 c2048_i32
  let v7 : Index := Scalar.indexCast v6
  let c0_3 : Index := 0#32
  ![v7.toNat, 0]
def k0_cond3 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  shapeCasts_S4096x128_S4096x128 : S4096x128.ShapeCasts S4096x128
  inb_S512x2048_S512x2048_0_0 : ∀ a, (![0, 0] : Fin 2 → Nat) a + S512x2048.size a ≤ S512x2048.size a
  h_S512x2048 : 0 < S512x2048.numel
  h_S2048x128 : 0 < S2048x128.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  broadcasts_S512x1_S512x128 : S512x1.Broadcasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  dot_S4096x128_S128x128_S4096x128_1_0_0_1_n_n_wf : DotDims.WF S4096x128 S128x128 S4096x128 [1] [0] [0] [1] [] []
  dot_S512x2048_S2048x128_S512x128_1_0_0_1_n_n_wf : DotDims.WF S512x2048 S2048x128 S512x128 [1] [0] [0] [1] [] []
  hrank0 : 0 < grid0.rank
  k0_off1_inb : ∀ i : grid0.Coords, ∀ a, (k0_off1 i) a + S2048x128.size a ≤ S4096x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x4096.size a
  hwx0_2 : ∀ i : grid0.Coords, EltTy.bits .f32 = 32 ∨ (Rect.block (s := S4096x4096) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .f32 = 32 ∨ (Rect.block (s := S4096x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S4096x128.size a
  hwx0_6 : ∀ i : grid0.Coords, EltTy.bits .f32 = 32 ∨ (Rect.block (s := S4096x128) S512x128.size (cc0_transform_6 i) (hinb0_6 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096 : Shape := ⟨2, ![4096, 4096]⟩
abbrev S4096x1 : Shape := ⟨2, ![4096, 1]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .f32⟩
  | .hbm, ⟨3, _⟩ => ⟨S4096x1, .f32⟩
  | .hbm, ⟨4, _⟩ => ⟨S128x128, .f32⟩
  | .hbm, ⟨5, _⟩ => ⟨S128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S1x128, .f32⟩
  | .hbm, ⟨12, _⟩ => ⟨S4096x128, .f32⟩
  | .hbm, ⟨13, _⟩ => ⟨S4096x128, .f32⟩
  | .hbm, ⟨14, _⟩ => ⟨S_, .f32⟩
  | .hbm, ⟨15, _⟩ => ⟨S4096x128, .f32⟩
  | .hbm, ⟨16, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  bcast_S4096x1_S4096x128_0_1 : S4096x1.BroadcastsInDim S4096x128 (![0, 1] : Fin 2 → Fin S4096x128.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.SumHalves.lean ====
/-
  The one algebraic law of this certificate. A sum over 4096 terms is the sum over its first 2048 terms plus the sum
  over its last 2048 terms. It holds in every commutative additive monoid, so on the extended reals it needs no
  finiteness: only commutativity and associativity of addition are used.
-/
import Mathlib.Algebra.BigOperators.Fin

namespace Cert.GcnSpec

/-- A sum over `Fin 4096` is the sum of its lower half and its upper half, the upper half read at `2048 + k`. -/
theorem sum_halves {M : Type*} [AddCommMonoid M] (f : Fin 4096 → M) :
    (∑ k : Fin 4096, f k)
      = (∑ k : Fin 2048, f ⟨k.val, by omega⟩) + (∑ k : Fin 2048, f ⟨2048 + k.val, by omega⟩) := by
  exact Fin.sum_univ_add (a := 2048) (b := 2048) (f : Fin (2048 + 2048) → M)

end Cert.GcnSpec
-- ==== Proof.Spec.lean ====
/-
  The specification of the graph-convolution layer, as ONE function of the six argument arrays, index by index, on the
  extended reals:

      out (r, c) = max ( (∑ k < 4096, adj (r, k) · support (k, c)) / rowsum (r, 0) + y (r, c) + b c ,  0 ),
      support (k, c) = ∑ j < 128, x (k, j) · W (j, c).

  Both programs compute exactly this. The tiled program forms the inner sum in two halves (k < 2048 and k ≥ 2048)
  and adds them; the two halves add up to the whole sum by commutativity and associativity of addition alone
  (`sum_halves`), so no argument needs to be finite.
-/
import Idealize.ShloMosaic.PureOps.Ideal
import Idealize.ShloMosaic.Lib.ValueIdx
import proofs.«106214_g42314017800850_cont_8to1_b_977_18_alg».proof.Proof.SumHalves

noncomputable section

namespace Cert.GcnSpec

open Idealize.ShloMosaic Idealize.ShloMosaic.ValueIdx

/-- The shapes of the arrays, by their extents. -/
abbrev SNxD : Shape := ⟨2, ![4096, 128]⟩
abbrev SNxN : Shape := ⟨2, ![4096, 4096]⟩
abbrev SNx1 : Shape := ⟨2, ![4096, 1]⟩
abbrev SDxD : Shape := ⟨2, ![128, 128]⟩
abbrev SD : Shape := ⟨1, ![128]⟩

/-- The projected features `x · W` at row `k`, column `c`. -/
def support (x : FVec Ideal SNxD .f32) (W : FVec Ideal SDxD .f32) (k : Fin 4096) (c : Fin 128) : EReal :=
  ∑ j : Fin 128, x (ix2 k j) * W (ix2 j c)

/-- The neighbourhood aggregation `adj · (x · W)` at row `r`, column `c`. -/
def agg (x : FVec Ideal SNxD .f32) (adj : FVec Ideal SNxN .f32) (W : FVec Ideal SDxD .f32) (r : Fin 4096) (c : Fin 128) : EReal :=
  ∑ k : Fin 4096, adj (ix2 r k) * support x W k c

/-- The first half of the aggregation: neighbours `k < 2048`. -/
def aggLo (x : FVec Ideal SNxD .f32) (adj : FVec Ideal SNxN .f32) (W : FVec Ideal SDxD .f32) (r : Fin 4096) (c : Fin 128) : EReal :=
  ∑ k : Fin 2048, adj (ix2 r (⟨k.val, by omega⟩ : Fin 4096)) * support x W ⟨k.val, by omega⟩ c

/-- The second half of the aggregation: neighbours `2048 + k`. -/
def aggHi (x : FVec Ideal SNxD .f32) (adj : FVec Ideal SNxN .f32) (W : FVec Ideal SDxD .f32) (r : Fin 4096) (c : Fin 128) : EReal :=
  ∑ k : Fin 2048, adj (ix2 r (⟨2048 + k.val, by omega⟩ : Fin 4096)) * support x W ⟨2048 + k.val, by omega⟩ c

/-- The aggregation is the sum of its two halves. -/
theorem agg_eq_halves (x : FVec Ideal SNxD .f32) (adj : FVec Ideal SNxN .f32) (W : FVec Ideal SDxD .f32) (r : Fin 4096) (c : Fin 128) :
    agg x adj W r c = aggLo x adj W r c + aggHi x adj W r c :=
  sum_halves (fun k : Fin 4096 => adj (ix2 r k) * support x W k c)

/-- The epilogue applied to an aggregated value `s`: divide by the row's normalizer, add the side feature and the bias,
    clamp below at zero. -/
def epilogue (y : FVec Ideal SNxD .f32) (rowsum : FVec Ideal SNx1 .f32) (b : FVec Ideal SD .f32) (s : EReal) (r : Fin 4096) (c : Fin 128) : EReal :=
  max (Ideal.div s (rowsum (ix2 r (0 : Fin 1))) + y (ix2 r c) + b (ix1 c)) (Ideal.ofBits .f32 0x00000000#32)

/-- The layer's output at row `r`, column `c`. -/
def outAt (x y : FVec Ideal SNxD .f32) (adj : FVec Ideal SNxN .f32) (rowsum : FVec Ideal SNx1 .f32) (W : FVec Ideal SDxD .f32)
    (b : FVec Ideal SD .f32) (r : Fin 4096) (c : Fin 128) : EReal :=
  epilogue y rowsum b (agg x adj W r c) r c

/-- The layer's output array. -/
def out (x y : FVec Ideal SNxD .f32) (adj : FVec Ideal SNxN .f32) (rowsum : FVec Ideal SNx1 .f32) (W : FVec Ideal SDxD .f32)
    (b : FVec Ideal SD .f32) : FVec Ideal SNxD .f32 :=
  fun i => outAt x y adj rowsum W b (i 0) (i 1)

theorem out_ix2 (x y : FVec Ideal SNxD .f32) (adj : FVec Ideal SNxN .f32) (rowsum : FVec Ideal SNx1 .f32) (W : FVec Ideal SDxD .f32)
    (b : FVec Ideal SD .f32) (r : Fin 4096) (c : Fin 128) : out x y adj rowsum W b (ix2 r c) = outAt x y adj rowsum W b r c := rfl

end Cert.GcnSpec

end
-- ==== Proof.RefIsSpec.lean ====
/-
  The reference computes the specification. Read one operation at a time and at one index (r, c), the reference's
  last stage is: two matrix products as plain sums, the normalizer broadcast along the columns, a quotient, the side
  feature added, the bias broadcast along the rows and added, and the maximum with zero. That is `GcnSpec.out`
  verbatim; what is left to check is that each operation reads its operand at the index the specification names.
-/
import proofs.«106214_g42314017800850_cont_8to1_b_977_18_alg».proof.Proof.Gen.ReferenceIdeal.Read
import proofs.«106214_g42314017800850_cont_8to1_b_977_18_alg».proof.Proof.Spec

noncomputable section

namespace Cert.ReferenceIdeal.RefValue

open Cert.ReferenceIdeal Cert.ReferenceIdeal.Read Idealize.ShloMosaic Idealize.ShloMosaic.ValueIdx Cert.GcnSpec

/-- The second product reads the adjacency matrix at (r, k) … -/
theorem lidx1 (r : Fin 4096) (c : Fin 128) (k : Fin 4096) : lidx_main_v1 (ix2 r c) k = ix2 r k :=
  funext fun a => by match a with | ⟨0, _⟩ => rfl | ⟨1, _⟩ => rfl
/-- … and the first product's result at (k, c). -/
theorem ridx1 (r : Fin 4096) (c : Fin 128) (k : Fin 4096) : ridx_main_v1 (ix2 r c) k = ix2 k c :=
  funext fun a => by match a with | ⟨0, _⟩ => rfl | ⟨1, _⟩ => rfl
/-- The first product reads the features at (k, j) … -/
theorem lidx0 (k : Fin 4096) (c : Fin 128) (j : Fin 128) : lidx_main_v0 (ix2 k c) j = ix2 k j :=
  funext fun a => by match a with | ⟨0, _⟩ => rfl | ⟨1, _⟩ => rfl
/-- … and the weights at (j, c). -/
theorem ridx0 (k : Fin 4096) (c : Fin 128) (j : Fin 128) : ridx_main_v0 (ix2 k c) j = ix2 j c :=
  funext fun a => by match a with | ⟨0, _⟩ => rfl | ⟨1, _⟩ => rfl
/-- The normalizer's broadcast reads it at (r, 0). -/
theorem idx2 (r : Fin 4096) (c : Fin 128) : idx_main_v2 (ix2 r c) = ix2 r (0 : Fin 1) :=
  funext fun a => by match a with | ⟨0, _⟩ => rfl | ⟨1, _⟩ => rfl
/-- The bias's two broadcasts read it at c. -/
theorem idx56 (r : Fin 4096) (c : Fin 128) : idx_main_v5 (idx_main_v6 (ix2 r c)) = ix1 c :=
  funext fun a => by match a with | ⟨0, _⟩ => rfl

/-- The reference's result array is the specification's output array. -/
theorem ref_eq_spec (x y : FVec Ideal S4096x128 .f32) (adj : FVec Ideal S4096x4096 .f32) (rowsum : FVec Ideal S4096x1 .f32)
    (W : FVec Ideal S128x128 .f32) (b : FVec Ideal S128 .f32) :
    val_main_v8 (F := Ideal) x y adj rowsum W b = out x y adj rowsum W b := by
  funext i
  obtain ⟨r, c, rfl⟩ : ∃ (r : Fin 4096) (c : Fin 128), i = ix2 r c := ⟨i 0, i 1, eq_ix2 i⟩
  rw [out_ix2, val_main_v8_apply, val_main_v7_apply, val_main_v4_apply, val_main_v3_apply, val_main_v1_apply,
    val_main_v2_apply, val_main_v6_apply, val_main_v5_apply, val_main_call0_v0_apply, val_main_call0_cst_apply]
  simp only [val_main_v0_apply, lidx1, ridx1, lidx0, ridx0, idx2, idx56]
  rfl

end Cert.ReferenceIdeal.RefValue

end
-- ==== Proof.Pieces.lean ====
/-
  What one run of the body leaves behind, as values. The body has three courses over the grid (i, k):

    * at the very first point (i = 0, k = 0) it stores the projection x·W whole into the first scratch array, then the
      product of the adjacency tile with rows 0 … 2047 of that projection into the second scratch array;
    * at the other points with k = 0 it leaves the first scratch array alone and stores into the second the product of
      the adjacency tile with rows 0 … 2047 of what the first holds;
    * at the points with k = 1 it leaves both alone and stores into the output block the epilogue of (second scratch
      array + adjacency tile times rows 2048 … 4095 of the first).

  Each store covers its array, so what the array holds afterwards is the stored value, a pure function of the blocks
  loaded (and of what the scratch arrays held). The rows of the projection a point multiplies are rows
  2048·k … 2048·k + 2047: one unit-stride slice of the first scratch array.
-/
import proofs.«106214_g42314017800850_cont_8to1_b_977_18_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The 2048 rows of a [4096, 128] array that the body multiplies at grid position `i`: rows 2048·k onwards, k the
    position's second coordinate. -/
abbrev rowsOf (i : grid0.Coords) (X : Vec F S4096x128 .f32) : Vec F S2048x128 .f32 :=
  View.ld X (Rect.unit (s := S4096x128) (k0_off1 i) S2048x128.size (k0_off1_inb i))

/-- First point: the first scratch array ends holding the projection of the two blocks loaded. -/
theorem proj_first (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .f32) (harg9 : arg9.IsWhole) (arg10 : Memref sig .tc .vmem S512x128 .f32) (harg10 : arg10.IsWhole) (hc0 : cond0_0 i) (hc1 : cond0_1 i) (hc2 : ¬cond0_2 i) (x0 : Vec F S4096x128 .f32) (x1 : Vec F S128x128 .f32) (x2 : Vec F S512x2048 .f32) (x3 : Vec F S512x1 .f32) (x4 : Vec F S512x128 .f32) (x5 : Vec F S1x128 .f32) :
    sout0_A_0 c i arg2 harg2 arg3 harg3 arg4 harg4 arg5 harg5 arg6 harg6 arg7 harg7 arg8 harg8 arg9 harg9 arg10 harg10 hc0 hc1 hc2 x0 x1 x2 x3 x4 x5 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 hc2 x0 x1 x2 x3 x4 x5)]
  unfold kernelRun0_A
  dsimp only
  sl_unfold_run_names
  rw [View.canon_unit_zero hz]
  simp only [View.readAt_eq_ld, harg2.read_unread, harg3.read_unread, View.ld_unit_zero (S := S4096x128) hz,
    View.ld_unit_zero (S := S128x128) hz]

/-- First point: the second scratch array ends holding the tile's product with the slice of the projection just stored. -/
theorem acc_first (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .f32) (harg9 : arg9.IsWhole) (arg10 : Memref sig .tc .vmem S512x128 .f32) (harg10 : arg10.IsWhole) (hc0 : cond0_0 i) (hc1 : cond0_1 i) (hc2 : ¬cond0_2 i) (x0 : Vec F S4096x128 .f32) (x1 : Vec F S128x128 .f32) (x2 : Vec F S512x2048 .f32) (x3 : Vec F S512x1 .f32) (x4 : Vec F S512x128 .f32) (x5 : Vec F S1x128 .f32) :
    sout0_A_1 c i arg2 harg2 arg3 harg3 arg4 harg4 arg5 harg5 arg6 harg6 arg7 harg7 arg8 harg8 arg9 harg9 arg10 harg10 hc0 hc1 hc2 x0 x1 x2 x3 x4 x5 = k0_pay3 x2 (rowsOf i (k0_pay1 x0 x1)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 hc2 x0 x1 x2 x3 x4 x5)]
  unfold kernelRun0_A
  dsimp only
  sl_unfold_run_names
  rw [View.canon_unit_zero hz]
  simp only [View.readAt_eq_ld]
  rw [View.read_writes_eq_canon _ _ _ (fun y => ⟨_, List.mem_singleton_self _, View.mem_set_unit_zero hz inb_S4096x128_S4096x128_0_0 y⟩),
    View.canon_unit_zero hz]
  simp only [View.readAt_eq_ld, harg2.read_unread, harg3.read_unread, harg4.read_unread, View.ld_unit_zero (S := S4096x128) hz,
    View.ld_unit_zero (S := S128x128) hz, View.ld_unit_zero (S := S512x2048) hz]

/-- A later point with k = 0: the second scratch array ends holding the tile's product with the slice of what the first
    scratch array held. -/
theorem acc_later (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .f32) (harg9 : arg9.IsWhole) (arg10 : Memref sig .tc .vmem S512x128 .f32) (harg10 : arg10.IsWhole) (hc0 : ¬cond0_0 i) (hc1 : cond0_1 i) (hc2 : ¬cond0_2 i) (x0 : Vec F S4096x128 .f32) (x1 : Vec F S128x128 .f32) (x2 : Vec F S512x2048 .f32) (x3 : Vec F S512x1 .f32) (x4 : Vec F S512x128 .f32) (x5 : Vec F S1x128 .f32) (xs0 : Vec F S4096x128 .f32) :
    sout0_C_1 c i arg2 harg2 arg3 harg3 arg4 harg4 arg5 harg5 arg6 harg6 arg7 harg7 arg8 harg8 arg9 harg9 arg10 harg10 hc0 hc1 hc2 x0 x1 x2 x3 x4 x5 xs0 = k0_pay3 x2 (rowsOf i xs0) := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 hc2 x0 x1 x2 x3 x4 x5 xs0)]
  unfold kernelRun0_C
  dsimp only
  try sl_unfold_run_names
  rw [View.canon_unit_zero hz]
  simp only [View.readAt_eq_ld, harg4.read_unread, harg9.read_unread, View.ld_unit_zero (S := S512x2048) hz]

/-- A point with k = 1: the output block ends holding the epilogue of the second scratch array plus the tile's product
    with the slice of the first. -/
theorem out_last (c : Dev nD) (i : grid0.Coords) (arg2 : Memref sig .tc .vmem S4096x128 .f32) (harg2 : arg2.IsWhole) (arg3 : Memref sig .tc .vmem S128x128 .f32) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S4096x128 .f32) (harg9 : arg9.IsWhole) (arg10 : Memref sig .tc .vmem S512x128 .f32) (harg10 : arg10.IsWhole) (hc0 : ¬cond0_0 i) (hc1 : ¬cond0_1 i) (hc2 : cond0_2 i) (x0 : Vec F S4096x128 .f32) (x1 : Vec F S128x128 .f32) (x2 : Vec F S512x2048 .f32) (x3 : Vec F S512x1 .f32) (x4 : Vec F S512x128 .f32) (x5 : Vec F S1x128 .f32) (xs0 : Vec F S4096x128 .f32) (xs1 : Vec F S512x128 .f32) :
    out0_B_6 c i arg2 harg2 arg3 harg3 arg4 harg4 arg5 harg5 arg6 harg6 arg7 harg7 arg8 harg8 arg9 harg9 arg10 harg10 hc0 hc1 hc2 x0 x1 x2 x3 x4 x5 xs0 xs1 = k0_pay4 x2 (rowsOf i xs0) xs1 x3 x4 x5 := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 hc2 x0 x1 x2 x3 x4 x5 xs0 xs1)]
  unfold kernelRun0_B
  dsimp only
  try sl_unfold_run_names
  rw [View.canon_unit_zero hz]
  simp only [View.readAt_eq_ld, harg4.read_unread, harg5.read_unread, harg6.read_unread, harg7.read_unread, harg9.read_unread,
    harg10.read_unread, View.ld_unit_zero (S := S512x2048) hz, View.ld_unit_zero (S := S512x128) hz,
    View.ld_unit_zero (S := S512x1) hz, View.ld_unit_zero (S := S1x128) hz]

end Cert.KernelIdeal.Pieces

end
-- ==== Proof.Payloads.lean ====
/-
  The body's arithmetic at one index, on the extended reals. A matrix product into a zero accumulator is the plain sum of
  products over the contracted axis; the column of normalizers [512, 1] and the bias row [1, 128] are broadcast over the
  block, so at (p, q) they read (p, 0) and (0, q); everything else is elementwise.
-/
import proofs.«106214_g42314017800850_cont_8to1_b_977_18_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payloads

open Cert.KernelIdeal Cert.KernelIdeal.Gen

/-- The dimension numbers of the projection x · W: [4096, 128] times [128, 128]. -/
abbrev Dproj := dot_S4096x128_S128x128_S4096x128_1_0_0_1_n_n
/-- The dimension numbers of a tile's product: [512, 2048] times [2048, 128]. -/
abbrev Dtile := dot_S512x2048_S2048x128_S512x128_1_0_0_1_n_n

/-! ## Which operand entries a product's entry multiplies -/

theorem proj_lhs0 (i : S4096x128.Idx) (q : Dproj.contr.Idx) : (Dproj.lhsIdx i q 0).val = (i 0).val := by
  unfold DotDims.lhsIdx
  rw [dif_neg (show ¬(0 : Fin S4096x128.rank) ∈ Dproj.lhsBatch by decide), dif_pos (show (0 : Fin S4096x128.rank) ∈ Dproj.lhsNonContracting by decide)]
  rfl
theorem proj_lhs1 (i : S4096x128.Idx) (q : Dproj.contr.Idx) : (Dproj.lhsIdx i q 1).val = (q ⟨0, by decide⟩).val :=
  Dproj.lhsIdx_val_of_single rfl i q
theorem proj_rhs0 (i : S4096x128.Idx) (q : Dproj.contr.Idx) : (Dproj.rhsIdx i q 0).val = (q ⟨0, by decide⟩).val :=
  Dproj.rhsIdx_val_of_single rfl i q
theorem proj_rhs1 (i : S4096x128.Idx) (q : Dproj.contr.Idx) : (Dproj.rhsIdx i q 1).val = (i 1).val := by
  unfold DotDims.rhsIdx
  rw [dif_neg (show ¬(1 : Fin S128x128.rank) ∈ Dproj.rhsBatch by decide), dif_pos (show (1 : Fin S128x128.rank) ∈ Dproj.rhsNonContracting by decide)]
  rfl

theorem tile_lhs0 (i : S512x128.Idx) (q : Dtile.contr.Idx) : (Dtile.lhsIdx i q 0).val = (i 0).val := by
  unfold DotDims.lhsIdx
  rw [dif_neg (show ¬(0 : Fin S512x2048.rank) ∈ Dtile.lhsBatch by decide), dif_pos (show (0 : Fin S512x2048.rank) ∈ Dtile.lhsNonContracting by decide)]
  rfl
theorem tile_lhs1 (i : S512x128.Idx) (q : Dtile.contr.Idx) : (Dtile.lhsIdx i q 1).val = (q ⟨0, by decide⟩).val :=
  Dtile.lhsIdx_val_of_single rfl i q
theorem tile_rhs0 (i : S512x128.Idx) (q : Dtile.contr.Idx) : (Dtile.rhsIdx i q 0).val = (q ⟨0, by decide⟩).val :=
  Dtile.rhsIdx_val_of_single rfl i q
theorem tile_rhs1 (i : S512x128.Idx) (q : Dtile.contr.Idx) : (Dtile.rhsIdx i q 1).val = (i 1).val := by
  unfold DotDims.rhsIdx
  rw [dif_neg (show ¬(1 : Fin S2048x128.rank) ∈ Dtile.rhsBatch by decide), dif_pos (show (1 : Fin S2048x128.rank) ∈ Dtile.rhsNonContracting by decide)]
  rfl

/-! ## The products as sums -/

/-- The projection at (k, q) is ∑ j, X (k, j) · W (j, q). -/
theorem proj_apply (X : FVec Ideal S4096x128 .f32) (W : FVec Ideal S128x128 .f32) (k : Fin 4096) (q : Fin 128) :
    k0_pay1 (F := Ideal) X W (ix2 k q) = ∑ j : Fin 128, X (ix2 k j) * W (ix2 j q) := by
  unfold k0_pay1
  rw [shapeCast_self]
  refine (Ideal.matmul_constant_zero_apply Dproj none X W (ix2 k q)).trans ?_
  rw [← Equiv.sum_comp (contrEquiv1 Dproj 128 rfl rfl).symm]
  refine Finset.sum_congr rfl fun j _ => ?_
  have hj := contrEquiv1_symm_val Dproj 128 rfl rfl j
  have el : Dproj.lhsIdx (ix2 k q) ((contrEquiv1 Dproj 128 rfl rfl).symm j) = ix2 k j := funext fun a => Fin.ext (by
    match a with
    | ⟨0, _⟩ => exact proj_lhs0 _ _
    | ⟨1, _⟩ => exact (proj_lhs1 _ _).trans hj)
  have er : Dproj.rhsIdx (ix2 k q) ((contrEquiv1 Dproj 128 rfl rfl).symm j) = ix2 j q := funext fun a => Fin.ext (by
    match a with
    | ⟨0, _⟩ => exact (proj_rhs0 _ _).trans hj
    | ⟨1, _⟩ => exact proj_rhs1 _ _)
  rw [el, er]

/-- A tile's product at (p, q) is ∑ k, A (p, k) · S (k, q). -/
theorem tile_apply (A : FVec Ideal S512x2048 .f32) (S : FVec Ideal S2048x128 .f32) (p : Fin 512) (q : Fin 128) :
    k0_pay2 (F := Ideal) A S (ix2 p q) = ∑ k : Fin 2048, A (ix2 p k) * S (ix2 k q) := by
  unfold k0_pay2
  refine (Ideal.matmul_constant_zero_apply Dtile none A S (ix2 p q)).trans ?_
  rw [← Equiv.sum_comp (contrEquiv1 Dtile 2048 rfl rfl).symm]
  refine Finset.sum_congr rfl fun k _ => ?_
  have hk := contrEquiv1_symm_val Dtile 2048 rfl rfl k
  have el : Dtile.lhsIdx (ix2 p q) ((contrEquiv1 Dtile 2048 rfl rfl).symm k) = ix2 p k := funext fun a => Fin.ext (by
    match a with
    | ⟨0, _⟩ => exact tile_lhs0 _ _
    | ⟨1, _⟩ => exact (tile_lhs1 _ _).trans hk)
  have er : Dtile.rhsIdx (ix2 p q) ((contrEquiv1 Dtile 2048 rfl rfl).symm k) = ix2 k q := funext fun a => Fin.ext (by
    match a with
    | ⟨0, _⟩ => exact (tile_rhs0 _ _).trans hk
    | ⟨1, _⟩ => exact tile_rhs1 _ _)
  rw [el, er]

/-- The value stored into the accumulator is the tile's product (the cast between equal shapes is the identity). -/
theorem acc_apply (A : FVec Ideal S512x2048 .f32) (S : FVec Ideal S2048x128 .f32) (p : Fin 512) (q : Fin 128) :
    k0_pay3 (F := Ideal) A S (ix2 p q) = ∑ k : Fin 2048, A (ix2 p k) * S (ix2 k q) := by
  unfold k0_pay3
  rw [shapeCast_self]
  exact tile_apply A S p q

/-! ## The broadcasts -/

/-- The normalizer column broadcast over the block reads row p of the column. -/
theorem col_apply (v : FVec Ideal S512x1 .f32) (p : Fin 512) (q : Fin 128) :
    broadcastTo S512x128 v broadcasts_S512x1_S512x128 (ix2 p q) = v (ix2 p (0 : Fin 1)) :=
  broadcastTo_apply v broadcasts_S512x1_S512x128 (ix2 p q) (ix2 p (0 : Fin 1)) (fun a => match a with
    | ⟨0, _⟩ => by show p.val = if (512 : Nat) = 1 then 0 else p.val; rw [if_neg (by decide)]
    | ⟨1, _⟩ => by show 0 = if (1 : Nat) = 1 then 0 else q.val; rw [if_pos rfl])

/-- The bias row broadcast over the block reads column q of the row. -/
theorem row_apply (v : FVec Ideal S1x128 .f32) (p : Fin 512) (q : Fin 128) :
    broadcastTo S512x128 v broadcasts_S1x128_S512x128 (ix2 p q) = v (ix2 (0 : Fin 1) q) :=
  broadcastTo_apply v broadcasts_S1x128_S512x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-! ## The epilogue -/

/-- The value stored into the output block at (p, q): the accumulator plus the tile's product, divided by the row's
    normalizer, plus the side feature, plus the bias, clamped below at zero. -/
theorem epi_apply (A : FVec Ideal S512x2048 .f32) (S : FVec Ideal S2048x128 .f32) (acc : FVec Ideal S512x128 .f32)
    (nrm : FVec Ideal S512x1 .f32) (side : FVec Ideal S512x128 .f32) (bias : FVec Ideal S1x128 .f32) (p : Fin 512) (q : Fin 128) :
    k0_pay4 (F := Ideal) A S acc nrm side bias (ix2 p q)
      = max (Ideal.div (acc (ix2 p q) + ∑ k : Fin 2048, A (ix2 p k) * S (ix2 k q)) (nrm (ix2 p (0 : Fin 1))) + side (ix2 p q)
          + bias (ix2 (0 : Fin 1) q)) (Ideal.ofBits .f32 0x00000000#32) := by
  unfold k0_pay4
  rw [maximumf_apply, addf_apply, addf_apply, divf_apply, addf_apply, tile_apply, col_apply, shapeCast_self, row_apply]
  rfl

end Cert.KernelIdeal.Payloads

end
-- ==== Proof.Blocks.lean ====
/-
  Where each window's block sits in its array. The grid is 8 row-blocks by 2 halves, walked row-block first: the point
  numbered t is row-block t / 2, half t % 2. At that point

    * the feature matrix x and the weights W are staged whole (block index (0, 0));
    * the adjacency tile is rows 512·(t/2) …, columns 2048·(t%2) … of the adjacency matrix;
    * the normalizer column, the side features and the output block are rows 512·(t/2) … of their arrays;
    * the bias is staged whole, as the [1, 128] array the host reshaped it to before the call;
    * the slice of the cached projection the body multiplies starts at row 2048·(t%2).

  An element of a block sits, on each axis, at block index × block size + its coordinate in the block.
-/
import proofs.«106214_g42314017800850_cont_8to1_b_977_18_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps, decided once over the sixteen grid points. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val / 2 ∧ win0_2.index t (1 : Fin 2) = t.val % 2
    ∧ win0_3.index t (0 : Fin 2) = t.val / 2 ∧ win0_3.index t (1 : Fin 2) = 0
    ∧ win0_4.index t (0 : Fin 2) = t.val / 2 ∧ win0_4.index t (1 : Fin 2) = 0
    ∧ win0_5.index t (0 : Fin 2) = 0 ∧ win0_5.index t (1 : Fin 2) = 0
    ∧ win0_6.index t (0 : Fin 2) = t.val / 2 ∧ win0_6.index t (1 : Fin 2) = 0 :=
  (by decide +kernel : ∀ t : Fin grid0.N, _)

/-- The slice of the cached projection starts at row 2048·(t % 2), column 0. -/
theorem off_facts : ∀ t : Fin cfg0.N, k0_off1 (grid0.coords t) (0 : Fin 2) = 2048 * (t.val % 2) ∧ k0_off1 (grid0.coords t) (1 : Fin 2) = 0 :=
  (by decide +kernel : ∀ t : Fin grid0.N, _)

/-- The feature matrix is staged whole. -/
theorem x_blk (c : Dev nD) (t : Fin cfg0.N) (k : Fin 4096) (j : Fin 128) :
    iblk m c 0 t (ix2 k j) = m ((c : Thread nD τ).loc main_arg0) (ix2 k j) := by
  unfold iblk
  rw [View.read_apply]
  show V m c main_arg0 _ = _
  rw [V_main_arg0]
  refine congrArg _ (funext fun a => Fin.ext ?_)
  obtain ⟨e0, e1, -⟩ := idx_facts t
  match a with
  | ⟨0, _⟩ => show win0_0.index t (0 : Fin 2) * 4096 + 1 * k.val = k.val; rw [e0]; omega
  | ⟨1, _⟩ => show win0_0.index t (1 : Fin 2) * 128 + 1 * j.val = j.val; rw [e1]; omega

/-- The weights are staged whole. -/
theorem w_blk (c : Dev nD) (t : Fin cfg0.N) (j : Fin 128) (q : Fin 128) :
    iblk m c 1 t (ix2 j q) = m ((c : Thread nD τ).loc main_arg4) (ix2 j q) := by
  unfold iblk
  rw [View.read_apply]
  show V m c main_arg4 _ = _
  rw [V_main_arg4]
  refine congrArg _ (funext fun a => Fin.ext ?_)
  obtain ⟨-, -, e0, e1, -⟩ := idx_facts t
  match a with
  | ⟨0, _⟩ => show win0_1.index t (0 : Fin 2) * 128 + 1 * j.val = j.val; rw [e0]; omega
  | ⟨1, _⟩ => show win0_1.index t (1 : Fin 2) * 128 + 1 * q.val = q.val; rw [e1]; omega

/-- The adjacency tile: rows 512·(t/2) + p, columns 2048·(t%2) + k. -/
theorem adj_blk (c : Dev nD) (t : Fin cfg0.N) (p : Fin 512) (k : Fin 2048) (r : Fin 4096) (kk : Fin 4096)
    (hr : r.val = 512 * (t.val / 2) + p.val) (hk : kk.val = 2048 * (t.val % 2) + k.val) :
    iblk m c 2 t (ix2 p k) = m ((c : Thread nD τ).loc main_arg2) (ix2 r kk) := by
  unfold iblk
  rw [View.read_apply]
  show V m c main_arg2 _ = _
  rw [V_main_arg2]
  refine congrArg _ (funext fun a => Fin.ext ?_)
  obtain ⟨-, -, -, -, e0, e1, -⟩ := idx_facts t
  match a with
  | ⟨0, _⟩ => show win0_2.index t (0 : Fin 2) * 512 + 1 * p.val = r.val; rw [e0, hr]; omega
  | ⟨1, _⟩ => show win0_2.index t (1 : Fin 2) * 2048 + 1 * k.val = kk.val; rw [e1, hk]; omega

/-- The normalizer column: rows 512·(t/2) + p. -/
theorem nrm_blk (c : Dev nD) (t : Fin cfg0.N) (p : Fin 512) (r : Fin 4096) (hr : r.val = 512 * (t.val / 2) + p.val) :
    iblk m c 3 t (ix2 p (0 : Fin 1)) = m ((c : Thread nD τ).loc main_arg3) (ix2 r (0 : Fin 1)) := by
  unfold iblk
  rw [View.read_apply]
  show V m c main_arg3 _ = _
  rw [V_main_arg3]
  refine congrArg _ (funext fun a => Fin.ext ?_)
  obtain ⟨-, -, -, -, -, -, e0, e1, -⟩ := idx_facts t
  match a with
  | ⟨0, _⟩ => show win0_3.index t (0 : Fin 2) * 512 + 1 * p.val = r.val; rw [e0, hr]; omega
  | ⟨1, _⟩ => show win0_3.index t (1 : Fin 2) * 1 + 1 * 0 = 0; rw [e1]

/-- The side features: rows 512·(t/2) + p. -/
theorem side_blk (c : Dev nD) (t : Fin cfg0.N) (p : Fin 512) (q : Fin 128) (r : Fin 4096) (hr : r.val = 512 * (t.val / 2) + p.val) :
    iblk m c 4 t (ix2 p q) = m ((c : Thread nD τ).loc main_arg1) (ix2 r q) := by
  unfold iblk
  rw [View.read_apply]
  show V m c main_arg1 _ = _
  rw [V_main_arg1]
  refine congrArg _ (funext fun a => Fin.ext ?_)
  obtain ⟨-, -, -, -, -, -, -, -, e0, e1, -⟩ := idx_facts t
  match a with
  | ⟨0, _⟩ => show win0_4.index t (0 : Fin 2) * 512 + 1 * p.val = r.val; rw [e0, hr]; omega
  | ⟨1, _⟩ => show win0_4.index t (1 : Fin 2) * 128 + 1 * q.val = q.val; rw [e1]; omega

/-- What the region finds in the reshaped bias array: the bias, cast from [128] to [1, 128]. -/
theorem bias_array (c : Dev nD) :
    (V m c main_v0 : S1x128.Idx → Elt F .f32) = shapeCast S1x128 (m ((c : Thread nD τ).loc main_arg5)) shapeCasts_S128_S1x128 := by
  dsimp only [V, hostOps0]
  after_results
  rfl

/-- The bias row, staged whole: column q of the bias. -/
theorem bias_blk (c : Dev nD) (t : Fin cfg0.N) (q : Fin 128) :
    iblk m c 5 t (ix2 (0 : Fin 1) q) = m ((c : Thread nD τ).loc main_arg5) (ix1 q) := by
  unfold iblk
  rw [View.read_apply]
  show V m c main_v0 _ = _
  rw [bias_array]
  refine Eq.trans (congrArg _ (funext fun a => Fin.ext ?_)) (shapeCast_a_1a_apply _ shapeCasts_S128_S1x128 (0 : Fin 1) q)
  obtain ⟨-, -, -, -, -, -, -, -, -, -, e0, e1, -⟩ := idx_facts t
  match a with
  | ⟨0, _⟩ => show win0_5.index t (0 : Fin 2) * 1 + 1 * 0 = 0; rw [e0]
  | ⟨1, _⟩ => show win0_5.index t (1 : Fin 2) * 128 + 1 * q.val = q.val; rw [e1]; omega

/-- The slice of a [4096, 128] array the body multiplies at point t: row 2048·(t%2) + k. -/
theorem rows_apply (t : Fin cfg0.N) (X : Vec F S4096x128 .f32) (k : Fin 2048) (q : Fin 128) (kk : Fin 4096)
    (hk : kk.val = 2048 * (t.val % 2) + k.val) :
    View.ld X (Rect.unit (s := S4096x128) (k0_off1 (grid0.coords t)) S2048x128.size (k0_off1_inb (grid0.coords t))) (ix2 k q) = X (ix2 kk q) := by
  show X _ = X _
  refine congrArg X (funext fun a => Fin.ext ?_)
  obtain ⟨e0, e1⟩ := off_facts t
  match a with
  | ⟨0, _⟩ => show k0_off1 (grid0.coords t) (0 : Fin 2) + 1 * k.val = kk.val; rw [e0, hk]; omega
  | ⟨1, _⟩ => show k0_off1 (grid0.coords t) (1 : Fin 2) + 1 * q.val = q.val; rw [e1]; omega

end Cert.KernelIdeal.Blocks

end
-- ==== Proof.Carried.lean ====
/-
  What the two scratch arrays and the output block hold after each grid point, by induction along the grid.

    * The first scratch array holds the projection x·W from the first point on: the first point stores it, and no
      later point stores into that array.
    * After a point with k = 0 (an even point 2i) the second scratch array holds the first half of the aggregation for
      row-block i: ∑ over neighbours k < 2048 of adj (512 i + p, k) · (x·W) (k, q).
    * At the following point with k = 1 (the odd point 2i + 1) the output block receives the epilogue of that first half
      plus the second half, ∑ over neighbours 2048 + k. The two halves are the whole aggregation (`agg_eq_halves`), so
      the block holds rows 512 i … of the specification's output.
-/
import proofs.«106214_g42314017800850_cont_8to1_b_977_18_alg».proof.Proof.Pieces
import proofs.«106214_g42314017800850_cont_8to1_b_977_18_alg».proof.Proof.Payloads
import proofs.«106214_g42314017800850_cont_8to1_b_977_18_alg».proof.Proof.Blocks
import proofs.«106214_g42314017800850_cont_8to1_b_977_18_alg».proof.Proof.Spec

noncomputable section

open Idealize.ShloMosaic Idealize.ShloMosaic.TcCoe Idealize.SL.Sem Idealize.ShloMosaic.ValueIdx

namespace Cert.KernelIdeal.Carried

open Cert.KernelIdeal Cert.KernelIdeal.Gen Cert.GcnSpec

variable (m : (ℓ : Loc nD τ sig) → Buf (Elt Ideal) ℓ)

/-- The six argument arrays as launched, on core `c`. -/
abbrev aX (c : Dev nD) : FVec Ideal SNxD .f32 := m ((c : Thread nD τ).loc main_arg0)
abbrev aY (c : Dev nD) : FVec Ideal SNxD .f32 := m ((c : Thread nD τ).loc main_arg1)
abbrev aAdj (c : Dev nD) : FVec Ideal SNxN .f32 := m ((c : Thread nD τ).loc main_arg2)
abbrev aNrm (c : Dev nD) : FVec Ideal SNx1 .f32 := m ((c : Thread nD τ).loc main_arg3)
abbrev aW (c : Dev nD) : FVec Ideal SDxD .f32 := m ((c : Thread nD τ).loc main_arg4)
abbrev aB (c : Dev nD) : FVec Ideal SD .f32 := m ((c : Thread nD τ).loc main_arg5)

/-- The projection the first point computes from the staged blocks is the specification's `support`. -/
theorem proj_blocks (c : Dev nD) (t : Fin cfg0.N) (k : Fin 4096) (q : Fin 128) :
    k0_pay1 (F := Ideal) (iblk m c 0 t) (iblk m c 1 t) (ix2 k q) = support (aX m c) (aW m c) k q := by
  rw [Payloads.proj_apply]
  unfold support
  refine Finset.sum_congr rfl fun j _ => ?_
  rw [Blocks.x_blk m c t k j, Blocks.w_blk m c t j q]

/-- After every point the first scratch array holds the projection. -/
theorem proj_inv (c : Dev nD) : ∀ (n : ℕ) (hn : n < cfg0.N) (k : Fin 4096) (q : Fin 128),
    (outsAt0 m c n hn).2.1 (ix2 k q) = support (aX m c) (aW m c) k q
  | 0, hn, k, q => by
    rw [outsAt0_A m c ⟨0, hn⟩ rfl rfl (by show ¬(0 % 2 = 1); decide)]
    dsimp only
    rw [Pieces.proj_first]
    exact proj_blocks m c ⟨0, hn⟩ k q
  | n + 1, hn, k, q => by
    have hN : n + 1 < 16 := lt_of_lt_of_eq hn N_0
    by_cases h1 : (n + 1) % 2 = 0
    · rw [outsAt0_C m c ⟨n + 1, hn⟩ (by dsimp only; omega) h1 (by dsimp only; omega)]
      dsimp only
      unfold sout0_C_0
      exact proj_inv c n _ k q
    · rw [outsAt0_B m c ⟨n + 1, hn⟩ (by dsimp only; omega) h1 (by dsimp only; omega)]
      dsimp only
      unfold sout0_B_0
      exact proj_inv c n _ k q

/-- The slice of the first scratch array that point `t` multiplies, after any point: the projection from row
    2048·(t % 2) on. -/
theorem rows_proj (c : Dev nD) (t : Fin cfg0.N) (n : ℕ) (hn : n < cfg0.N) (k : Fin 2048) (q : Fin 128) (kk : Fin 4096)
    (hk : kk.val = 2048 * (t.val % 2) + k.val) :
    Pieces.rowsOf (F := Ideal) (grid0.coords t) ((outsAt0 m c n hn).2.1) (ix2 k q) = support (aX m c) (aW m c) kk q :=
  (Blocks.rows_apply (F := Ideal) t ((outsAt0 m c n hn).2.1) k q kk hk).trans (proj_inv m c n hn kk q)

/-- The same slice of the projection the first point has just computed. -/
theorem rows_proj_first (c : Dev nD) (t : Fin cfg0.N) (k : Fin 2048) (q : Fin 128) (kk : Fin 4096)
    (hk : kk.val = 2048 * (t.val % 2) + k.val) :
    Pieces.rowsOf (F := Ideal) (grid0.coords t) (k0_pay1 (F := Ideal) (iblk m c 0 t) (iblk m c 1 t)) (ix2 k q) = support (aX m c) (aW m c) kk q :=
  (Blocks.rows_apply (F := Ideal) t (k0_pay1 (F := Ideal) (iblk m c 0 t) (iblk m c 1 t)) k q kk hk).trans (proj_blocks m c t kk q)

/-- At an even point the tile's product with rows 0 … 2047 of the projection is the first half of the aggregation. -/
theorem half_lo (c : Dev nD) (t : Fin cfg0.N) (he : t.val % 2 = 0) (A : FVec Ideal S512x2048 .f32)
    (hA : ∀ (p : Fin 512) (k : Fin 2048) (r kk : Fin 4096), r.val = 512 * (t.val / 2) + p.val → kk.val = 2048 * (t.val % 2) + k.val →
      A (ix2 p k) = aAdj m c (ix2 r kk)) (S : FVec Ideal S2048x128 .f32)
    (hS : ∀ (k : Fin 2048) (q : Fin 128), S (ix2 k q) = support (aX m c) (aW m c) ⟨k.val, by omega⟩ q)
    (p : Fin 512) (q : Fin 128) (r : Fin 4096) (hr : r.val = 512 * (t.val / 2) + p.val) :
    (∑ k : Fin 2048, A (ix2 p k) * S (ix2 k q)) = aggLo (aX m c) (aAdj m c) (aW m c) r q := by
  unfold aggLo
  refine Finset.sum_congr rfl fun k _ => ?_
  rw [hA p k r ⟨k.val, by omega⟩ hr (by show k.val = 2048 * (t.val % 2) + k.val; rw [he]; omega), hS k q]

/-- At an odd point the tile's product with rows 2048 … 4095 of the projection is the second half. -/
theorem half_hi (c : Dev nD) (t : Fin cfg0.N) (ho : t.val % 2 = 1) (A : FVec Ideal S512x2048 .f32)
    (hA : ∀ (p : Fin 512) (k : Fin 2048) (r kk : Fin 4096), r.val = 512 * (t.val / 2) + p.val → kk.val = 2048 * (t.val % 2) + k.val →
      A (ix2 p k) = aAdj m c (ix2 r kk)) (S : FVec Ideal S2048x128 .f32)
    (hS : ∀ (k : Fin 2048) (q : Fin 128), S (ix2 k q) = support (aX m c) (aW m c) ⟨2048 + k.val, by omega⟩ q)
    (p : Fin 512) (q : Fin 128) (r : Fin 4096) (hr : r.val = 512 * (t.val / 2) + p.val) :
    (∑ k : Fin 2048, A (ix2 p k) * S (ix2 k q)) = aggHi (aX m c) (aAdj m c) (aW m c) r q := by
  unfold aggHi
  refine Finset.sum_congr rfl fun k _ => ?_
  rw [hA p k r ⟨2048 + k.val, by omega⟩ hr (by show 2048 + k.val = 2048 * (t.val % 2) + k.val; rw [ho]), hS k q]

/-- After an even point 2i the second scratch array holds the first half of the aggregation for row-block i. -/
theorem acc_inv (c : Dev nD) (n : ℕ) (hn : n < cfg0.N) (he : n % 2 = 0) (p : Fin 512) (q : Fin 128) (r : Fin 4096)
    (hr : r.val = 512 * (n / 2) + p.val) :
    (outsAt0 m c n hn).2.2 (ix2 p q) = aggLo (aX m c) (aAdj m c) (aW m c) r q := by
  cases n with
  | zero =>
    rw [outsAt0_A m c ⟨0, hn⟩ rfl rfl (by show ¬(0 % 2 = 1); decide)]
    dsimp only
    rw [Pieces.acc_first, Payloads.acc_apply]
    exact half_lo m c ⟨0, hn⟩ rfl _ (Blocks.adj_blk m c ⟨0, hn⟩) _
      (fun k q => rows_proj_first m c ⟨0, hn⟩ k q ⟨k.val, by omega⟩ (by show k.val = 2048 * (0 % 2) + k.val; omega)) p q r hr
  | succ n =>
    have hN : n + 1 < 16 := lt_of_lt_of_eq hn N_0
    rw [outsAt0_C m c ⟨n + 1, hn⟩ (by dsimp only; omega) he (by dsimp only; omega)]
    dsimp only
    rw [Pieces.acc_later, Payloads.acc_apply]
    exact half_lo m c ⟨n + 1, hn⟩ he _ (Blocks.adj_blk m c ⟨n + 1, hn⟩) _
      (fun k q => rows_proj m c ⟨n + 1, hn⟩ _ _ k q ⟨k.val, by omega⟩ (by show k.val = 2048 * ((n + 1) % 2) + k.val; rw [he]; omega)) p q r hr

/-- At an odd point 2i + 1 the output block receives rows 512 i … of the specification's output. -/
theorem out_inv (c : Dev nD) (t : Fin cfg0.N) (ho : t.val % 2 = 1) (p : Fin 512) (q : Fin 128) (r : Fin 4096)
    (hr : r.val = 512 * (t.val / 2) + p.val) :
    (outsAt0 m c t.val t.isLt).1 (ix2 p q) = outAt (aX m c) (aY m c) (aAdj m c) (aNrm m c) (aW m c) (aB m c) r q := by
  have hN : t.val < 16 := lt_of_lt_of_eq t.isLt N_0
  rw [outsAt0_B m c t (by omega) (by omega) ho]
  dsimp only
  rw [Pieces.out_last, Payloads.epi_apply]
  rw [acc_inv m c (t.val - 1) _ (by omega) p q r (by omega)]
  rw [half_hi m c t ho _ (Blocks.adj_blk m c t) _ (fun k q => rows_proj m c t _ _ k q ⟨2048 + k.val, by omega⟩ (by show 2048 + k.val = 2048 * (t.val % 2) + k.val; rw [ho])) p q r hr]
  rw [Blocks.nrm_blk m c t p r hr, Blocks.side_blk m c t p q r hr, Blocks.bias_blk m c t q]
  unfold outAt epilogue
  rw [agg_eq_halves]

end Cert.KernelIdeal.Carried

end
-- ==== Proof.Result.lean ====
/-
  From blocks to the array. The output array [4096, 128] is written back in eight blocks of 512 rows, block i at the odd
  point 2i + 1 and at no other point. What that point writes back is rows 512 i … 512 i + 511 of the specification's
  output (`Carried.out_inv`), and the eight blocks cover every row (row r lies in block r / 512), so after the run the
  output array IS the specification's output of the argument arrays as launched.
-/
import proofs.«106214_g42314017800850_cont_8to1_b_977_18_alg».proof.Proof.Carried
import proofs.«106214_g42314017800850_cont_8to1_b_977_18_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.GcnSpec Cert.KernelIdeal.Carried

variable (m : (ℓ : Loc nD τ sig) → Buf (Elt Ideal) ℓ) (ρ : Dev nD → PrngReg)

/-- The specification's output of the argument arrays as launched on core `c`, as contents of the result array. -/
abbrev result (c : Dev nD) : Buf (Elt Ideal) ((c : Thread nD τ).loc main_v1) :=
  out (aX m c) (aY m c) (aAdj m c) (aNrm m c) (aW m c) (aB m c)

/-- What a writing-back point writes is its block of the specification's output. -/
theorem flushed_eq (c : Dev nD) (t : Fin cfg0.N) (hf : (cfg0.win 6).flush t = true) :
    (dats m 0 c).flushed 6 t = ((cfg0.win 6).blk t).view.read (Elt Ideal) (result m c) := by
  have ho : t.val % 2 = 1 := (flush0_6 t).mp hf
  have hN : t.val < 16 := lt_of_lt_of_eq t.isLt N_0
  rw [Cert.KernelIdeal.Value.flushed6]
  funext j
  obtain ⟨p, q, rfl⟩ : ∃ (p : Fin 512) (q : Fin 128), j = ix2 p q := ⟨j 0, j 1, eq_ix2 j⟩
  show (outsAt0 m c t.val t.isLt).1 (ix2 p q) = result m c (((cfg0.win 6).blk t).view.emb (ix2 p q))
  have he : ((cfg0.win 6).blk t).view.emb (ix2 p q) = ix2 (⟨512 * (t.val / 2) + p.val, by omega⟩ : Fin 4096) q := by
    funext a; apply Fin.ext
    obtain ⟨-, -, -, -, -, -, -, -, -, -, -, -, e0, e1⟩ := Blocks.idx_facts t
    match a with
    | ⟨0, _⟩ => show win0_6.index t (0 : Fin 2) * 512 + 1 * p.val = 512 * (t.val / 2) + p.val; rw [e0]; omega
    | ⟨1, _⟩ => show win0_6.index t (1 : Fin 2) * 128 + 1 * q.val = q.val; rw [e1]; omega
  rw [he]
  exact out_inv m c t ho p q _ rfl

/-- An index of the array is in point `t`'s block iff each coordinate is in the block's range on its axis. -/
theorem mem_blk (t : Fin cfg0.N) (i : S4096x128.Idx) :
    i ∈ ((cfg0.win 6).blk t).view.set ↔ ∀ a : Fin 2, win0_6.index t a * S512x128.size a ≤ (i a).val ∧ (i a).val < win0_6.index t a * S512x128.size a + S512x128.size a := by
  show i ∈ ((View.whole main_v1).slice (win0_6.rect t)).set ↔ _
  rw [View.set_slice_whole, Rect.mem_set_unit]
  exact Iff.rfl

/-- Every index of the output array lies in the block of a writing-back point: row r in the block of point 2·(r / 512) + 1. -/
theorem cover (i : S4096x128.Idx) : ∃ t : Fin cfg0.N, (cfg0.win 6).flush t = true ∧ i ∈ ((cfg0.win 6).blk t).view.set := by
  have hi0 : (i 0).val < 4096 := (i 0).isLt
  have hi1 : (i 1).val < 128 := (i 1).isLt
  have hN : cfg0.N = 16 := N_0
  have ht : 2 * ((i 0).val / 512) + 1 < cfg0.N := by rw [hN]; omega
  refine ⟨⟨2 * ((i 0).val / 512) + 1, ht⟩, (flush0_6 _).mpr (by show (2 * ((i 0).val / 512) + 1) % 2 = 1; omega), ?_⟩
  rw [mem_blk]
  obtain ⟨-, -, -, -, -, -, -, -, -, -, -, -, e0, e1⟩ := Blocks.idx_facts ⟨2 * ((i 0).val / 512) + 1, ht⟩
  intro a
  match a with
  | ⟨0, _⟩ =>
    show win0_6.index ⟨2 * ((i 0).val / 512) + 1, ht⟩ (0 : Fin 2) * 512 ≤ (i 0).val ∧ (i 0).val < win0_6.index ⟨2 * ((i 0).val / 512) + 1, ht⟩ (0 : Fin 2) * 512 + 512
    rw [e0]; dsimp only; omega
  | ⟨1, _⟩ =>
    show win0_6.index ⟨2 * ((i 0).val / 512) + 1, ht⟩ (1 : Fin 2) * 128 ≤ (i 1).val ∧ (i 1).val < win0_6.index ⟨2 * ((i 0).val / 512) + 1, ht⟩ (1 : Fin 2) * 128 + 128
    rw [e1]; omega

/-- After the run the output array holds the specification's output. -/
theorem final (c : Dev nD) : (dats m 0 c).arrAt 6 cfg0.N = result m c :=
  (dats m 0 c).arrAt_eq_of_cover 6 (result m c) (fun t hf => flushed_eq m c t hf) cover

/-- The run, read: every weakly fair execution terminates with the result array at the specification's output of the
    arguments as launched, and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Result

end
-- ==== Proof.lean ====
/-
  A graph-convolution layer, tiled, against its plain reference:

      out = max ( adj · (x · W) / rowsum + y + b , 0 ).

  The tiled program walks a grid of 8 row-blocks by 2 halves. At the very first point it computes the projection x · W once
  and keeps it in a scratch array for the whole run; at each point it multiplies a [512, 2048] tile of the adjacency matrix
  with the matching 2048 rows of that projection; at the first half it keeps the product in a second scratch array, at the
  second half it adds the new product, divides by the row's normalizer, adds the side feature and the bias, clamps below
  at zero, and stores the [512, 128] output block. The reference does the same with two whole matrix products.

  On the extended reals both are one function of the six arguments (`GcnSpec.out`):
    * the reference is that function read one operation at a time (`RefValue.ref_eq_spec`);
    * the tiled program's output array is that function block by block (`Result.run`): the first scratch array holds the
      projection after every point, the second holds the first half of the inner sum after each even point, and the two
      halves of the inner sum add up to the whole sum by commutativity and associativity of addition alone
      (`GcnSpec.sum_halves`), so the arguments' finiteness is never used.
  The three frames are the generated ones (the reference's is its generated run with the result dropped); the idealized
  program is the printed program's own text read on the extended reals, so there is nothing to preserve.
-/
import proofs.«106214_g42314017800850_cont_8to1_b_977_18_alg».proof.Defs
import proofs.«106214_g42314017800850_cont_8to1_b_977_18_alg».proof.Proof.Gen.Kernel
import proofs.«106214_g42314017800850_cont_8to1_b_977_18_alg».proof.Proof.Gen.Kernel.Skeleton
import proofs.«106214_g42314017800850_cont_8to1_b_977_18_alg».proof.Proof.Gen.Kernel.Launch
import proofs.«106214_g42314017800850_cont_8to1_b_977_18_alg».proof.Proof.Gen.Kernel.Points
import proofs.«106214_g42314017800850_cont_8to1_b_977_18_alg».proof.Proof.Gen.Kernel.Frame
import proofs.«106214_g42314017800850_cont_8to1_b_977_18_alg».proof.Proof.Gen.KernelIdeal
import proofs.«106214_g42314017800850_cont_8to1_b_977_18_alg».proof.Proof.Gen.KernelIdeal.Skeleton
import proofs.«106214_g42314017800850_cont_8to1_b_977_18_alg».proof.Proof.Gen.KernelIdeal.Launch
import proofs.«106214_g42314017800850_cont_8to1_b_977_18_alg».proof.Proof.Gen.KernelIdeal.Points
import proofs.«106214_g42314017800850_cont_8to1_b_977_18_alg».proof.Proof.Gen.KernelIdeal.Frame
import proofs.«106214_g42314017800850_cont_8to1_b_977_18_alg».proof.Proof.Gen.ReferenceIdeal
import proofs.«106214_g42314017800850_cont_8to1_b_977_18_alg».proof.Proof.Gen.Pre_finite_inputs
import proofs.«106214_g42314017800850_cont_8to1_b_977_18_alg».proof.Proof.Gen.KernelIdeal.Value
import proofs.«106214_g42314017800850_cont_8to1_b_977_18_alg».proof.Proof.Gen.ReferenceIdeal.Run
import proofs.«106214_g42314017800850_cont_8to1_b_977_18_alg».proof.Proof.Gen.ReferenceIdeal.Read
import proofs.«106214_g42314017800850_cont_8to1_b_977_18_alg».proof.Proof.RefIsSpec
import proofs.«106214_g42314017800850_cont_8to1_b_977_18_alg».proof.Proof.Result
import Idealize.ShloMosaic.Adequacy
import Idealize.ShloMosaic.Init

noncomputable section

namespace Cert.Proof

open Idealize.ShloMosaic Idealize.ShloMosaic.TcCoe Idealize.SL.Sem

namespace GcnClaims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals the tiled program's result array ends at the specification's output of its arguments, and the
    reference's at the specification's output of arguments that agree with them. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq_spec,
    (hagree c).1, (hagree c).2.1, (hagree c).2.2.1, (hagree c).2.2.2.1, (hagree c).2.2.2.2.1, (hagree c).2.2.2.2.2]

end GcnClaims

theorem claim : Cert.Claim := ⟨Cert.Kernel.Gen.facts, Cert.KernelIdeal.Gen.facts, Cert.ReferenceIdeal.Gen.facts, Cert.Pre_finite_inputs.Gen.facts,
  GcnClaims.frame_k, GcnClaims.frame_ki, GcnClaims.frame_ri, GcnClaims.preserves, GcnClaims.algebraic⟩

end Cert.Proof

end
